-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1600000x65 : Shape := ⟨2, ![1600000, 65]⟩
abbrev S100000x65 : Shape := ⟨2, ![100000, 65]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 26
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S1600000x1, .f32⟩
  | .hbm, ⟨16, _⟩ => ⟨S1600000x65, .f32⟩
  | .hbm, ⟨17, _⟩ => ⟨S_, .f32⟩
  | .hbm, ⟨18, _⟩ => ⟨S100000x65, .f32⟩
  | .hbm, ⟨19, _⟩ => ⟨S1600000x1, .i32⟩
  | .hbm, ⟨20, _⟩ => ⟨S100000x65, .f32⟩
  | .hbm, ⟨21, _⟩ => ⟨S100000x64, .f32⟩
  | .hbm, ⟨22, _⟩ => ⟨S100000x1, .f32⟩
  | .hbm, ⟨23, _⟩ => ⟨S1x64, .f32⟩
  | .hbm, ⟨24, _⟩ => ⟨S64x64, .bf16⟩
  | .hbm, ⟨25, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .bf16⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  concatenates_S1600000x64_S1600000x1_S1600000x65_d1 : Shape.Concatenates [S1600000x64, S1600000x1] S1600000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S64_S1x64 : S64.ShapeCasts S1x64
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x65_S1600000x1_S1600000x65_1_0_0_1_wf : ScatterDims.WF S100000x65 S1600000x1 S1600000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x64, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .i1⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Spec.lean ====
/-
  The graph layer both programs compute, as one function of arrays on the extended reals.

  For node r and output channel c, from the summed neighbour messages ms [N, 64], the node features feat [N, 64], the
  in-degrees dg [N, 1], the weights W [64, 64] and the bias b [1, 64]:

      h(r, k)   = (ms(r, k) + feat(r, k)) / (dg(r) + 1)          the mean over the node and its in-neighbours
      z(r, c)   = (Σ_{k < 64} h(r, k) · W(k, c)) + b(c)           the linear map
      out(r, c) = z if z ≥ 0, else slope · z                      the leaky rectifier

  The one, the zero and the slope are the 32-bit float words both programs spell (1.0, 0.0 and the float nearest 0.01).
  Entry (r, c) reads only row r of ms, feat and dg: that is why a block of rows of the result is the same function of
  the matching blocks of rows (`layerEntry_congr`).
-/
import Idealize.ShloMosaic.PureOps.Ideal
import Idealize.ShloMosaic.Lib.ValueIdx

noncomputable section

namespace Cert.Sage

open Idealize.ShloMosaic Idealize.ShloMosaic.ValueIdx

/-- The leaky rectifier: z where z ≥ 0, the slope word times z elsewhere. -/
def leaky (z : EReal) : EReal :=
  Scalar.select (FloatOps.cmpf (F := Ideal) (φ := .f32) .oge z (Ideal.ofBits .f32 0x00000000#32)) z
    (Ideal.ofBits .f32 0x3C23D70A#32 * z)

/-- One entry of the layer from one row's data: hsum k is the row's message sum plus its own feature at channel k, d the
    row's in-degree, wcol k the weight column and bc the bias of the output channel. -/
def layerAt (hsum : Fin 64 → EReal) (d : EReal) (wcol : Fin 64 → EReal) (bc : EReal) : EReal :=
  leaky ((∑ k : Fin 64, Ideal.div (hsum k) (d + Ideal.ofBits .f32 0x3F800000#32) * wcol k) + bc)

/-- The layer's entry at node r and channel c, from whole arrays: it reads row r of the message sums, features and degrees,
    column c of the weights and entry c of the bias row. -/
def layerEntry (ms feat : (⟨2, ![100000, 64]⟩ : Shape).Idx → EReal) (dg : (⟨2, ![100000, 1]⟩ : Shape).Idx → EReal)
    (W : (⟨2, ![64, 64]⟩ : Shape).Idx → EReal) (b : (⟨2, ![1, 64]⟩ : Shape).Idx → EReal) (r : Fin 100000) (c : Fin 64) : EReal :=
  layerAt (fun k => ms (ix2 r k) + feat (ix2 r k)) (dg (ix2 r (0 : Fin 1))) (fun k => W (ix2 k c)) (b (ix2 (0 : Fin 1) c))

/-- The layer over whole arrays, entry by entry. -/
def layer (ms feat : (⟨2, ![100000, 64]⟩ : Shape).Idx → EReal) (dg : (⟨2, ![100000, 1]⟩ : Shape).Idx → EReal)
    (W : (⟨2, ![64, 64]⟩ : Shape).Idx → EReal) (b : (⟨2, ![1, 64]⟩ : Shape).Idx → EReal) :
    (⟨2, ![100000, 64]⟩ : Shape).Idx → EReal :=
  fun i => layerEntry ms feat dg W b (i 0) (i 1)

theorem layer_apply (ms feat : (⟨2, ![100000, 64]⟩ : Shape).Idx → EReal) (dg : (⟨2, ![100000, 1]⟩ : Shape).Idx → EReal)
    (W : (⟨2, ![64, 64]⟩ : Shape).Idx → EReal) (b : (⟨2, ![1, 64]⟩ : Shape).Idx → EReal) (r : Fin 100000) (c : Fin 64) :
    layer ms feat dg W b (ix2 r c) = layerEntry ms feat dg W b r c := rfl

/-- An entry depends only on the entries it reads: row r of the first three arrays, column c of the weights, entry c of
    the bias. -/
theorem layerEntry_congr {ms ms' feat feat' : (⟨2, ![100000, 64]⟩ : Shape).Idx → EReal}
    {dg dg' : (⟨2, ![100000, 1]⟩ : Shape).Idx → EReal} {W W' : (⟨2, ![64, 64]⟩ : Shape).Idx → EReal}
    {b b' : (⟨2, ![1, 64]⟩ : Shape).Idx → EReal} (r : Fin 100000) (c : Fin 64)
    (hms : ∀ k, ms (ix2 r k) = ms' (ix2 r k)) (hfeat : ∀ k, feat (ix2 r k) = feat' (ix2 r k))
    (hdg : dg (ix2 r (0 : Fin 1)) = dg' (ix2 r (0 : Fin 1))) (hW : ∀ k, W (ix2 k c) = W' (ix2 k c))
    (hb : b (ix2 (0 : Fin 1) c) = b' (ix2 (0 : Fin 1) c)) :
    layerEntry ms feat dg W b r c = layerEntry ms' feat' dg' W' b' r c := by
  unfold layerEntry
  simp only [hms, hfeat, hdg, hW, hb]

/-- Arrays that agree entry by entry give the same layer. -/
theorem layer_congr {ms ms' feat feat' : (⟨2, ![100000, 64]⟩ : Shape).Idx → EReal}
    {dg dg' : (⟨2, ![100000, 1]⟩ : Shape).Idx → EReal} {W W' : (⟨2, ![64, 64]⟩ : Shape).Idx → EReal}
    {b b' : (⟨2, ![1, 64]⟩ : Shape).Idx → EReal}
    (hms : ∀ r k, ms (ix2 r k) = ms' (ix2 r k)) (hfeat : ∀ r k, feat (ix2 r k) = feat' (ix2 r k))
    (hdg : ∀ r, dg (ix2 r (0 : Fin 1)) = dg' (ix2 r (0 : Fin 1))) (hW : ∀ k c, W (ix2 k c) = W' (ix2 k c))
    (hb : ∀ c, b (ix2 (0 : Fin 1) c) = b' (ix2 (0 : Fin 1) c)) :
    layer ms feat dg W b = layer ms' feat' dg' W' b' :=
  funext fun i => layerEntry_congr (i 0) (i 1) (hms _) (hfeat _) (hdg _) (fun k => hW k _) (hb _)

end Cert.Sage

end
-- ==== Proof.KernelBody.lean ====
/-
  The kernel body's stored value, read at an entry.

  At one grid point the body holds a block of 5000 rows of the message sums, of the features and of the degrees, the whole
  weight matrix and the bias row.  Its one store writes, at row y of the block and channel c,

      leaky( (Σ_{k < 64} ((ms(y, k) + feat(y, k)) / (dg(y) + 1)) · W(k, c)) + b(c) ),

  the layer's entry for that row: the narrowing of the quotient to bf16 is the identity on the extended reals, the
  matrix product into a zero accumulator is the plain sum over the contracted channel, the degree column and the bias
  row are spread over the block by reading the column at (y, 0) and the row at (0, c).
-/
import proofs.«166605_j11622181503640_2_alg».proof.Proof.Gen.KernelIdeal.Skeleton
import proofs.«166605_j11622181503640_2_alg».proof.Proof.LibPlainDot
import proofs.«166605_j11622181503640_2_alg».proof.Proof.LibUnitAxes
import proofs.«166605_j11622181503640_2_alg».proof.Proof.Spec
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Sage

/-- The product's left index keeps the output's row. -/
theorem dot_lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The product's right index keeps the output's column. -/
theorem dot_rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The value before the rectifier, at row y and channel c: the row's mean feature times the weight column, plus the bias. -/
theorem linear_apply (v0 : FVec Ideal S5000x1 .f32) (v4 v6 : FVec Ideal S5000x64 .f32) (v11 : FVec Ideal S64x64 .bf16)
    (v14 : FVec Ideal S1x64 .f32) (y : Fin 5000) (c : Fin 64) :
    addf (matmul dot_S5000x64_S64x64_S5000x64_1_0_0_1_n_n none
        (truncf .bf16 (divf (addf v4 v6)
          (broadcastTo S5000x64 (addf v0 (broadcast S5000x1 (Scalar.ofBits (F := Ideal) .f32 0x3F800000#32))) broadcasts_S5000x1_S5000x64))
          bitsLt_bf16_f32)
        v11 (constant (F := Ideal) S5000x64 .f32 0x00000000#32))
      (broadcastTo S5000x64 v14 broadcasts_S1x64_S5000x64) (ix2 y c)
    = (∑ k : Fin 64, Ideal.div (v4 (ix2 y k) + v6 (ix2 y k)) (v0 (ix2 y (0 : Fin 1)) + Ideal.ofBits .f32 0x3F800000#32)
        * v11 (ix2 k c)) + v14 (ix2 (0 : Fin 1) c) := by
  rw [addf_apply, broadcastTo_1b_ab_apply]
  refine congrArg (· + v14 (ix2 (0 : Fin 1) c)) ?_
  refine (Cert.LibPlainDot.matmul_zero_apply dot_S5000x64_S64x64_S5000x64_1_0_0_1_n_n rfl rfl rfl rfl
    dot_lhs_row dot_rhs_col none _ v11 y c).trans ?_
  refine Finset.sum_congr rfl fun k _ => ?_
  refine congrArg (· * v11 (ix2 k c)) ?_
  rw [truncf_apply, divf_apply, Cert.LibUnitAxes.broadcastTo_a1_ab_apply]
  rfl

/-- THE STORED VALUE AT (y, c) is the layer's entry for row y of the block and channel c. -/
theorem pay_apply (v0 : Vec Ideal S5000x1 .f32) (v4 v6 : Vec Ideal S5000x64 .f32) (v11 : Vec Ideal S64x64 .bf16)
    (v14 : Vec Ideal S1x64 .f32) (y : Fin 5000) (c : Fin 64) :
    k0_pay1 v0 v4 v6 v11 v14 (ix2 y c)
      = layerAt (fun k => v4 (ix2 y k) + v6 (ix2 y k)) (v0 (ix2 y (0 : Fin 1))) (fun k => v11 (ix2 k c))
          (v14 (ix2 (0 : Fin 1) c)) := by
  unfold k0_pay1
  simp only [shapeCast_self]
  unfold layerAt leaky
  rw [select_apply, cmpf_apply, mulf_apply, broadcast_apply, broadcast_apply, linear_apply]
  rfl

end Cert.KernelIdeal.Body

end
-- ==== Proof.KernelValue.lean ====
/-
  From blocks to the whole result array.

  The grid has 20 points; point t stages rows 5000·t … 5000·t + 4999 of the message sums, the features and the degrees,
  the whole weight matrix and the whole bias row, and writes back rows 5000·t … 5000·t + 4999 of the result.  An entry
  of the layer reads only its own row of the first three arrays, so what point t writes back is block t of the layer of
  the WHOLE arrays (`flushed_apply`); row r lies in the block of point r / 5000, so the blocks cover the result (`cover`);
  hence the result array ends holding the layer of the arrays the region finds (`final`).
-/
import proofs.«166605_j11622181503640_2_alg».proof.Proof.Gen.KernelIdeal.Value
import proofs.«166605_j11622181503640_2_alg».proof.Proof.KernelBody

noncomputable section

namespace Cert.KernelIdeal.Whole

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as the layer of the arrays the region finds in its five input windows. -/
def G (c : Dev nD) : (⟨2, ![100000, 64]⟩ : Shape).Idx → EReal :=
  layer (V m c main_v12) (V m c main_arg0) (V m c main_v13) (V m c main_v15) (V m c main_v14)

/-- One stored entry from blocks that are rows of whole arrays: if row y of the three row blocks is row r of the whole
    arrays, and the weight block and bias block are the whole weight and bias arrays, the entry stored at (y, c) is the
    layer's entry at (r, c). -/
theorem block_entry (A12 A0 : (⟨2, ![100000, 64]⟩ : Shape).Idx → EReal) (A13 : (⟨2, ![100000, 1]⟩ : Shape).Idx → EReal)
    (A15 : (⟨2, ![64, 64]⟩ : Shape).Idx → EReal) (A14 : (⟨2, ![1, 64]⟩ : Shape).Idx → EReal)
    (x0 x1 : Vec Ideal S5000x64 .f32) (x2 : Vec Ideal S5000x1 .f32) (x3 : Vec Ideal S64x64 .bf16) (x4 : Vec Ideal S1x64 .f32)
    (y : Fin 5000) (cc : Fin 64) (r : Fin 100000)
    (h0 : ∀ k : Fin 64, x0 (ix2 y k) = A12 (ix2 r k)) (h1 : ∀ k : Fin 64, x1 (ix2 y k) = A0 (ix2 r k))
    (h2 : x2 (ix2 y (0 : Fin 1)) = A13 (ix2 r (0 : Fin 1)))
    (h3 : ∀ k : Fin 64, x3 (ix2 k cc) = A15 (ix2 k cc)) (h4 : x4 (ix2 (0 : Fin 1) cc) = A14 (ix2 (0 : Fin 1) cc)) :
    Gen.k0_pay1 x2 x0 x1 x3 x4 (ix2 y cc) = layerEntry A12 A0 A13 A15 A14 r cc := by
  rw [Cert.KernelIdeal.Body.pay_apply]
  unfold layerEntry
  simp only [h0, h1, h2, h3, h4]

/-- The printed index maps, decided over the grid: the three row windows and the result window sit at block (t, 0),
    the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ### What each input window's block holds -/

/-- Row y of point t's block of the message sums is row r = 5000·t + y of the array. -/
theorem block_msg (c : Dev nD) (t : Fin cfg0.N) (y : Fin 5000) (k : Fin 64) (r : Fin 100000)
    (hr : r.val = t.val * 5000 + y.val) : iblk m c 0 t (ix2 y k) = V m c main_v12 (ix2 r k) := by
  obtain ⟨e00, e01, -⟩ := idx_facts t
  unfold iblk
  rw [View.read_apply, cast_eq]
  refine congrArg (V m c main_v12) (funext fun a => Fin.ext ?_)
  match a with
  | ⟨0, _⟩ => show win0_0.index t (0 : Fin 2) * 5000 + 1 * y.val = r.val; omega
  | ⟨1, _⟩ => show win0_0.index t (1 : Fin 2) * 64 + 1 * k.val = k.val; omega

/-- Row y of point t's block of the features is row r = 5000·t + y of the array. -/
theorem block_feat (c : Dev nD) (t : Fin cfg0.N) (y : Fin 5000) (k : Fin 64) (r : Fin 100000)
    (hr : r.val = t.val * 5000 + y.val) : iblk m c 1 t (ix2 y k) = V m c main_arg0 (ix2 r k) := by
  obtain ⟨-, -, e10, e11, -⟩ := idx_facts t
  unfold iblk
  rw [View.read_apply, cast_eq]
  refine congrArg (V m c main_arg0) (funext fun a => Fin.ext ?_)
  match a with
  | ⟨0, _⟩ => show win0_1.index t (0 : Fin 2) * 5000 + 1 * y.val = r.val; omega
  | ⟨1, _⟩ => show win0_1.index t (1 : Fin 2) * 64 + 1 * k.val = k.val; omega

/-- Row y of point t's block of the degrees is row r = 5000·t + y of the array. -/
theorem block_deg (c : Dev nD) (t : Fin cfg0.N) (y : Fin 5000) (r : Fin 100000)
    (hr : r.val = t.val * 5000 + y.val) :
    iblk m c 2 t (ix2 y (0 : Fin 1)) = V m c main_v13 (ix2 r (0 : Fin 1)) := by
  obtain ⟨-, -, -, -, e20, e21, -⟩ := idx_facts t
  unfold iblk
  rw [View.read_apply, cast_eq]
  refine congrArg (V m c main_v13) (funext fun a => Fin.ext ?_)
  match a with
  | ⟨0, _⟩ => show win0_2.index t (0 : Fin 2) * 5000 + 1 * y.val = r.val; omega
  | ⟨1, _⟩ => show win0_2.index t (1 : Fin 2) * 1 + 1 * 0 = 0; omega

/-- Every point's block of the weights is the whole weight array. -/
theorem block_w (c : Dev nD) (t : Fin cfg0.N) (k cc : Fin 64) : iblk m c 3 t (ix2 k cc) = V m c main_v15 (ix2 k cc) := by
  obtain ⟨-, -, -, -, -, -, e30, e31, -⟩ := idx_facts t
  unfold iblk
  rw [View.read_apply, cast_eq]
  refine congrArg (V m c main_v15) (funext fun a => Fin.ext ?_)
  match a with
  | ⟨0, _⟩ => show win0_3.index t (0 : Fin 2) * 64 + 1 * k.val = k.val; omega
  | ⟨1, _⟩ => show win0_3.index t (1 : Fin 2) * 64 + 1 * cc.val = cc.val; omega

/-- Every point's block of the bias is the whole bias row. -/
theorem block_b (c : Dev nD) (t : Fin cfg0.N) (cc : Fin 64) :
    iblk m c 4 t (ix2 (0 : Fin 1) cc) = V m c main_v14 (ix2 (0 : Fin 1) cc) := by
  obtain ⟨-, -, -, -, -, -, -, -, e40, e41, -⟩ := idx_facts t
  unfold iblk
  rw [View.read_apply, cast_eq]
  refine congrArg (V m c main_v14) (funext fun a => Fin.ext ?_)
  match a with
  | ⟨0, _⟩ => show win0_4.index t (0 : Fin 2) * 1 + 1 * 0 = 0; omega
  | ⟨1, _⟩ => show win0_4.index t (1 : Fin 2) * 64 + 1 * cc.val = cc.val; omega

/-! ### What a point writes back -/

/-- The body's store at point t, at row y of the block and channel c, is `G` at row 5000·t + y and channel c. -/
theorem stored_apply (c : Dev nD) (t : Fin cfg0.N) (y : Fin 5000) (cc : Fin 64) (r : Fin 100000)
    (hr : r.val = t.val * 5000 + y.val) :
    Gen.k0_pay1 (iblk m c 2 t) (iblk m c 0 t) (iblk m c 1 t) (iblk m c 3 t) (iblk m c 4 t) (ix2 y cc) = G m c (ix2 r cc) :=
  block_entry (V m c main_v12) (V m c main_arg0) (V m c main_v13) (V m c main_v15) (V m c main_v14)
    (iblk m c 0 t) (iblk m c 1 t) (iblk m c 2 t) (iblk m c 3 t) (iblk m c 4 t) y cc r
    (fun k => block_msg m c t y k r hr) (fun k => block_feat m c t y k r hr) (block_deg m c t y r hr)
    (fun k => block_w m c t k cc) (block_b m c t cc)

/-- WHAT POINT t WRITES BACK is block t of `G`: the entry it writes from row y of its blocks, channel c, is `G` at the
    array index of that entry, row 5000·t + y and channel c. -/
theorem flushed_apply (c : Dev nD) (t : Fin cfg0.N) (j : ((cfg0.win 5).xblock (cfg0.grid.coords t)).Idx) :
    (dats m 0 c).flushed 5 t j = G m c (((cfg0.win 5).blk t).view.emb j) := by
  rw [Cert.KernelIdeal.Value.flushed5]
  unfold out0_5
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, -, -, e50, e51⟩ := idx_facts t
  have ht : t.val < 20 := by have := t.isLt; have hN : cfg0.N = 20 := N_0; omega
  have hj0 : (j 0).val < 5000 := (j 0).isLt
  have hj1 : (j 1).val < 64 := (j 1).isLt
  have hx : (win0 5).xinj (grid0.coords t) j = ix2 (⟨(j 0).val, hj0⟩ : Fin 5000) (⟨(j 1).val, hj1⟩ : Fin 64) :=
    funext fun a => Fin.ext (by
      match a with
      | ⟨0, _⟩ => rfl
      | ⟨1, _⟩ => rfl)
  have he : ((cfg0.win 5).blk t).view.emb j
      = ix2 (⟨t.val * 5000 + (j 0).val, by omega⟩ : Fin 100000) (⟨(j 1).val, hj1⟩ : Fin 64) :=
    funext fun a => Fin.ext (by
      match a with
      | ⟨0, _⟩ => show win0_5.index t (0 : Fin 2) * 5000 + 1 * (j 0).val = t.val * 5000 + (j 0).val; omega
      | ⟨1, _⟩ => show win0_5.index t (1 : Fin 2) * 64 + 1 * (j 1).val = (j 1).val; omega)
  show Gen.k0_pay1 (iblk m c 2 t) (iblk m c 0 t) (iblk m c 1 t) (iblk m c 3 t) (iblk m c 4 t) ((win0 5).xinj (grid0.coords t) j) = _
  rw [hx, he]
  exact stored_apply m c t _ _ _ rfl

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v16).slice (win0_5.rect t)).set ↔ _
  rw [View.set_slice_whole, Rect.mem_set_unit]
  exact Iff.rfl

/-- Every index of the result array is in the block of the point its row falls in. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  obtain ⟨e00, e01, e10, e11, e20, e21, e30, e31, e40, e41, e50, e51⟩ := idx_facts t
  have htv : t.val = (i 0).val / 5000 := rfl
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The same, as the block of `G` read through the window. -/
theorem flushed_eq (c : Dev nD) (t : Fin cfg0.N) :
    (dats m 0 c).flushed 5 t = ((cfg0.win 5).blk t).view.read (Elt Ideal) (G m c) := by
  funext j
  rw [View.read_apply, cast_eq]
  exact flushed_apply m c t j

/-- THE RESULT ARRAY after the run is `G`. -/
theorem final (c : Dev nD) : (dats m 0 c).arrAt 5 cfg0.N = G m c :=
  (dats m 0 c).arrAt_eq_of_cover 5 (G m c) (fun t _ => flushed_eq m c t) (cover)

/-- The run, read: the result array at `G`, the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.HostPrefix.lean ====
/-
  What the region finds in the arrays the host wrote before it.

  Before the one kernel call the host gathers the source rows of the features (row indices below zero wrapped by the
  number of nodes), appends a column of ones, and scatter-adds the 65-column payload into a zero array by destination
  row: `msgdeg`.  The kernel's first window is its first 64 columns (the message sums), its third window the last
  column (the in-degrees); the bias enters as a one-row matrix and the weights narrowed to bf16.
-/
import proofs.«166605_j11622181503640_2_alg».proof.Proof.Gen.KernelIdeal.Frame
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F]

/-- The source row of each edge as an [E, 1] array of index vectors: a negative index is counted from the end. -/
def srcRows (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The features of each edge's source node: [E, 64]. -/
def gathered (x0 : (⟨S100000x64, .f32⟩ : BufTy).Contents (Elt F)) (x1 : (⟨S1600000, .i32⟩ : BufTy).Contents (Elt F)) :
    (⟨S1600000x64, .f32⟩ : BufTy).Contents (Elt F) :=
  Host.gather gather_S100000x64_S1600000x1_S1600000x64_1_0_n_n_0_1_164 x0 (srcRows x1)

/-- The destination row of each edge as an [E, 1] array of index vectors. -/
def dstRows (x2 : (⟨S1600000, .i32⟩ : BufTy).Contents (Elt F)) : (⟨S1600000x1, .i32⟩ : BufTy).Contents (Elt F) :=
  broadcastInDim S1600000x1 ![0] bcast_S1600000_S1600000x1_0 x2

/-- Each edge's payload: its source features and a one. -/
def payload (x0 : (⟨S100000x64, .f32⟩ : BufTy).Contents (Elt F)) (x1 : (⟨S1600000, .i32⟩ : BufTy).Contents (Elt F)) :
    (⟨S1600000x65, .f32⟩ : BufTy).Contents (Elt F) :=
  concatenate S1600000x65 1 [⟨S1600000x64, gathered x0 x1⟩,
    ⟨S1600000x1, broadcastInDim S1600000x1 ![] bcast_S_S1600000x1 (constant S_ .f32 0x3F800000#32)⟩]
    concatenates_S1600000x64_S1600000x1_S1600000x65_d1

/-- Per destination node, the summed payloads of its incoming edges: 64 columns of message sums and one of in-degrees. -/
def msgdeg (x0 : (⟨S100000x64, .f32⟩ : BufTy).Contents (Elt F)) (x1 x2 : (⟨S1600000, .i32⟩ : BufTy).Contents (Elt F)) :
    (⟨S100000x65, .f32⟩ : BufTy).Contents (Elt F) :=
  Host.scatterAdd scatter_S100000x65_S1600000x1_S1600000x65_1_0_0_1
    (broadcastInDim S100000x65 ![] bcast_S_S100000x65 (constant S_ .f32 0x00000000#32)) (dstRows x2) (payload x0 x1)

variable (m : (ℓ : Loc nD τ sig) → Buf (Elt F) ℓ)

/-- The first window's array: the first 64 columns of `msgdeg`. -/
theorem V_main_v12 (c : Dev nD) :
    V m c main_v12 = extractStridedSlice S100000x64 ![0, 0]
      (msgdeg (F := F) (m ((c : Thread nD τ).loc main_arg0)) (m ((c : Thread nD τ).loc main_arg1)) (m ((c : Thread nD τ).loc main_arg2)))
      slices_S100000x65_S100000x64_0_0 := by
  unfold V; after_results; rfl

/-- The third window's array: the last column of `msgdeg`. -/
theorem V_main_v13 (c : Dev nD) :
    V m c main_v13 = extractStridedSlice S100000x1 ![0, 64]
      (msgdeg (F := F) (m ((c : Thread nD τ).loc main_arg0)) (m ((c : Thread nD τ).loc main_arg1)) (m ((c : Thread nD τ).loc main_arg2)))
      slices_S100000x65_S100000x1_0_64 := by
  unfold V; after_results; rfl

/-- The fifth window's array: the bias as a one-row matrix. -/
theorem V_main_v14 (c : Dev nD) :
    V m c main_v14 = shapeCast S1x64 (m ((c : Thread nD τ).loc main_arg4)) shapeCasts_S64_S1x64 := by
  unfold V; after_results; rfl

/-- The fourth window's array: the weights narrowed to bf16. -/
theorem V_main_v15 (c : Dev nD) :
    V m c main_v15 = truncf .bf16 (m ((c : Thread nD τ).loc main_arg3)) bitsLt_bf16_f32 := by
  unfold V; after_results

end Cert.KernelIdeal.Prefix

end
-- ==== Proof.RefValue.lean ====
/-
  The reference's result is the layer of its own segment sums.

  The reference computes the message sums (a row scatter-add of the gathered source features) and the in-degrees (a
  vector scatter-add of ones) separately, spreads the degrees to a column and the bias to a row, and then applies,
  entry by entry, exactly the layer: the quotient of (message sum + feature) by (degree + 1), the product with the
  weights as a plain sum over the 64 input channels, the bias and the leaky rectifier.
-/
import proofs.«166605_j11622181503640_2_alg».proof.Proof.Gen.ReferenceIdeal.Read
import proofs.«166605_j11622181503640_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Sage

/-- The value before the rectifier at node r and channel c. -/
theorem linear_apply (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) (r : Fin 100000) (c : Fin 64) :
    val_main_v23 (F := Ideal) x0 x1 x2 x3 x4 (ix2 r c)
      = (∑ k : Fin 64, Ideal.div (val_main_v9 (F := Ideal) x0 x1 x2 (ix2 r k) + x0 (ix2 r k))
            (val_main_v15 (F := Ideal) x2 (ix2 r (0 : Fin 1)) + Ideal.ofBits .f32 0x3F800000#32) * x3 (ix2 k c))
          + val_main_v21 (F := Ideal) x4 (ix2 (0 : Fin 1) c) := by
  have el : ∀ k : Fin 64, lidx_main_v20 (ix2 r c) k = ix2 r k := fun k => funext fun a => Fin.ext (by
    match a with
    | ⟨0, _⟩ => rfl
    | ⟨1, _⟩ => rfl)
  have er : ∀ k : Fin 64, ridx_main_v20 (ix2 r c) k = ix2 k c := fun k => funext fun a => Fin.ext (by
    match a with
    | ⟨0, _⟩ => rfl
    | ⟨1, _⟩ => rfl)
  have e22 : idx_main_v22 (ix2 r c) = ix2 (0 : Fin 1) c := funext fun a => Fin.ext (by
    match a with
    | ⟨0, _⟩ => rfl
    | ⟨1, _⟩ => rfl)
  rw [val_main_v23_apply, val_main_v20_apply, val_main_v22_apply, Ideal.addf_def]
  simp only [el, er, e22]
  refine congrArg (· + val_main_v21 (F := Ideal) x4 (ix2 (0 : Fin 1) c)) (Finset.sum_congr rfl fun k _ => ?_)
  have e18 : idx_main_v18 (ix2 r k) = ix2 r (0 : Fin 1) := funext fun a => Fin.ext (by
    match a with
    | ⟨0, _⟩ => rfl
    | ⟨1, _⟩ => rfl)
  rw [val_main_v19_apply, val_main_v14_apply, val_main_v18_apply, e18, val_main_v17_apply, val_main_v16_apply,
    val_main_cst_3_apply]
  rfl

/-- THE REFERENCE'S RESULT is the layer of its message sums, the features, its degree column, the weights and its bias row. -/
theorem result_eq_layer (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v28 (F := Ideal) x0 x1 x2 x3 x4
      = layer (val_main_v9 (F := Ideal) x0 x1 x2) x0 (val_main_v15 (F := Ideal) x2) x3 (val_main_v21 (F := Ideal) x4) := by
  funext i
  obtain ⟨r, c, rfl⟩ : ∃ (r : Fin 100000) (c : Fin 64), i = ix2 r c := ⟨i 0, i 1, eq_ix2 i⟩
  rw [layer_apply]
  unfold layerEntry layerAt leaky
  rw [val_main_v28_apply, val_main_v25_apply, val_main_v27_apply, val_main_v24_apply, val_main_v26_apply,
    val_main_cst_4_apply, val_main_cst_5_apply, linear_apply]
  rfl

end Cert.ReferenceIdeal.RefValue

end
-- ==== Proof.LibRowScatterGather.lean ====
/-
  Row scatters and row gathers of the host, read at an index on the extended reals.

  The shapes are the ones `jax.ops.segment_sum(data, ids)`, `x.at[rows, cols].add(v)` and `x[ids]` lower to when `ids` is
  a flat integer vector of `E` entries, presented to StableHLO as an `[E, 1]` (or `[E, 2]`) array of index vectors:

  * `segDims`   — scatter-add into `[N, C]` of updates `[E, C]` by row: result `(i, c)` is the operand's entry plus the sum of
                  `upd (e, c)` over the entries `e` whose index word, READ SIGNED, equals `i` (`hostScatterAdd_seg_apply`);
  * `vecDims`   — the same for a vector `[N]` and updates `[E]` (`hostScatterAdd_vec_apply`);
  * `denseDims` — scatter-add into a matrix `[N, M]` of updates `[E]` at index pairs: result `(i, j)` adds the updates of the
                  entries whose two index words are `i` and `j` (`hostScatterAdd_dense_apply`);
  * `rowDims`   — gather of rows of `[N, C]`: result `(e, c)` is the operand at row `ids e` read signed and CLAMPED into
                  `[0, N − 1]`, column `c` (`gather_rows_apply`);
  * `vecGDims`  — the same for a vector `[N]` (`gather_vec_apply`).

  A scatter drops an update whose index is out of range and a gather clamps it, so the two treat an out-of-range index
  differently; on indices in range (`toInt_eq_of_lt` turns the signed reading of a word below `N` into the word's value)
  both address row `ids e`.  The general fact underneath the scatters is `resultIdx?_eq_some_iff`: an update lands on an
  operand index exactly when start plus window coordinate equals that index's coordinate on every axis.
  The dimension numbers are stated with their well-formedness as a hypothesis, decided on a program's literal shapes; a
  printed record with these dimension numbers is definitionally the corresponding `…Dims N … wf`.
-/
import Idealize.ShloMosaic.Lib.ValueIdx
import Idealize.ShloMosaic.PureOps.Ideal
import Mathlib.Algebra.BigOperators.Group.Finset.Piecewise

noncomputable section

namespace LibRowScatterGather

open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- For any scatter: update `j` lands on operand index `r` exactly when start plus window coordinate is `r`'s coordinate on
    every axis (and is dropped otherwise). -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i h
    constructor
    · intro heq a
      have := congrFun (Option.some.inj heq) a
      rw [← this]
      exact (Int.toNat_of_nonneg (h a).1).symm
    · intro hall
      refine congrArg some (funext fun a => Fin.ext ?_)
      show (d.start j idx a + d.window j a).toNat = (r a).val
      rw [hall a]; rfl
  · rename_i h
    constructor
    · intro h'; cases h'
    · intro hall; exfalso; apply h; intro a; rw [hall a]
      exact ⟨Int.natCast_nonneg _, by exact_mod_cast (r a).isLt⟩

/-! ## Scatter-add by row into a matrix (a segment sum) -/

section Seg

/-- The dimension numbers of a scatter of updates `[E, C]` into an operand `[N, C]` at row indices `[E, 1]`. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start0 (idx : IVec ⟨2, ![E, 1]⟩ w) (e : Fin E) (c : Fin C) :
    (segDims N E C wf).start (ix2 e c) idx 0 = (idx (ix2 e 0)).toInt := by
  unfold ScatterDims.start
  rw [dif_pos (show (0 : Fin 2) ∈ (segDims N E C wf).scatterDimsToOperandDims from List.mem_singleton.mpr rfl)]
  refine congrArg (fun k => (idx k).toInt) ?_
  funext b; refine Fin.ext ?_
  match b with
  | ⟨0, _⟩ => rfl
  | ⟨1, _⟩ => rfl

theorem start1 (idx : IVec ⟨2, ![E, 1]⟩ w) (j : (⟨2, ![E, C]⟩ : Shape).Idx) :
    (segDims N E C wf).start j idx 1 = 0 := by
  unfold ScatterDims.start
  have h : (1 : Fin 2) ∉ (segDims N E C wf).scatterDimsToOperandDims := (show (1 : Fin 2) ∉ ([0] : List (Fin 2)) from by decide)
  rw [dif_neg h]

theorem window0 (j : (⟨2, ![E, C]⟩ : Shape).Idx) : (segDims N E C wf).window j 0 = 0 := by
  unfold ScatterDims.window
  have h : (0 : Fin 2) ∉ (segDims N E C wf).sKept :=
    (show (0 : Fin 2) ∉ ((List.finRange 2).filter (· ∉ ([0] : List (Fin 2)))) from by decide)
  rw [dif_neg h]

theorem window1 (e : Fin E) (c : Fin C) : (segDims N E C wf).window (ix2 e c) 1 = c.val := by
  unfold ScatterDims.window
  have h : (1 : Fin 2) ∈ (segDims N E C wf).sKept :=
    (show (1 : Fin 2) ∈ ((List.finRange 2).filter (· ∉ ([0] : List (Fin 2)))) from by decide)
  rw [dif_pos h]
  rfl

theorem resultIdx?_seg_iff (idx : IVec ⟨2, ![E, 1]⟩ w) (e : Fin E) (c : Fin C) (i : Fin N) (c' : Fin C) :
    (segDims N E C wf).resultIdx? (ix2 e c) idx = some (ix2 i c') ↔ (idx (ix2 e 0)).toInt = (i.val : Int) ∧ c = c' := by
  rw [resultIdx?_eq_some_iff]
  constructor
  · intro h
    have h0 : (segDims N E C wf).start (ix2 e c) idx 0 + (segDims N E C wf).window (ix2 e c) 0 = ((i.val : ℕ) : ℤ) := h 0
    have h1 : (segDims N E C wf).start (ix2 e c) idx 1 + (segDims N E C wf).window (ix2 e c) 1 = ((c'.val : ℕ) : ℤ) := h 1
    rw [start0, window0] at h0
    rw [start1, window1] at h1
    refine ⟨by simpa using h0, Fin.ext ?_⟩
    have : ((c.val : Int)) = (c'.val : Int) := by simpa using h1
    exact_mod_cast this
  · rintro ⟨h0, rfl⟩ a
    match a with
    | ⟨0, _⟩ => show (segDims N E C wf).start (ix2 e c) idx 0 + (segDims N E C wf).window (ix2 e c) 0 = _; rw [start0, window0, h0]; simp
    | ⟨1, _⟩ => show (segDims N E C wf).start (ix2 e c) idx 1 + (segDims N E C wf).window (ix2 e c) 1 = _; rw [start1, window1]; simp

/-- THE SEGMENT SUM READ AT `(i, c)`: the operand there plus the updates of the rows whose index word, read signed, is `i`. -/
theorem hostScatterAdd_seg_apply (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (segDims N E C wf) x idx upd (ix2 i c)
      = x (ix2 i c) + ∑ e ∈ Finset.univ.filter (fun e : Fin E => (idx (ix2 e 0)).toInt = (i.val : Int)), upd (ix2 e c) := by
  unfold Ideal.hostScatterAdd
  refine congrArg (x (ix2 i c) + ·) ?_
  rw [Finset.sum_filter, sum_idx2, Finset.sum_filter]
  refine Finset.sum_congr rfl fun e _ => ?_
  simp only [resultIdx?_seg_iff]
  by_cases hi : (idx (ix2 e 0)).toInt = (i.val : Int)
  · simp only [hi, true_and, if_true]
    rw [Finset.sum_ite_eq' Finset.univ c fun b => upd (ix2 e b), if_pos (Finset.mem_univ _)]
  · simp only [hi, false_and, if_false, Finset.sum_const_zero]

end Seg

/-! ## Scatter-add into a vector -/

section Vec

/-- The dimension numbers of a scatter of updates `[E]` into an operand `[N]` at indices `[E, 1]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  refine congrArg (fun k => (idx k).toInt) ?_
  funext b; refine Fin.ext ?_
  match b with
  | ⟨0, _⟩ => rfl
  | ⟨1, _⟩ => rfl

theorem vec_window0 (j : (⟨1, ![E]⟩ : Shape).Idx) : (vecDims N E wf).window j 0 = 0 := by
  unfold ScatterDims.window
  have h : (0 : Fin 1) ∉ (vecDims N E wf).sKept :=
    (show (0 : Fin 1) ∉ ((List.finRange 1).filter (· ∉ ([0] : List (Fin 1)))) from by decide)
  rw [dif_neg h]

theorem resultIdx?_vec_iff (idx : IVec ⟨2, ![E, 1]⟩ w) (e : Fin E) (i : Fin N) :
    (vecDims N E wf).resultIdx? (ix1 e) idx = some (ix1 i) ↔ (idx (ix2 e 0)).toInt = (i.val : Int) := by
  rw [resultIdx?_eq_some_iff]
  constructor
  · intro h
    have h0 : (vecDims N E wf).start (ix1 e) idx 0 + (vecDims N E wf).window (ix1 e) 0 = ((i.val : ℕ) : ℤ) := h 0
    rw [vec_start0, vec_window0] at h0
    simpa using h0
  · intro h0 a
    obtain rfl : a = 0 := Subsingleton.elim _ _
    show (vecDims N E wf).start (ix1 e) idx 0 + (vecDims N E wf).window (ix1 e) 0 = ((i.val : ℕ) : ℤ)
    rw [vec_start0, vec_window0, h0]; simp

/-- THE VECTOR SCATTER-ADD READ AT `i`: the operand there plus the updates of the entries whose index word, read signed, is `i`. -/
theorem hostScatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e 0)).toInt = (i.val : Int)), upd (ix1 e) := by
  unfold Ideal.hostScatterAdd
  refine congrArg (x (ix1 i) + ·) ?_
  rw [Finset.sum_filter, sum_idx1, Finset.sum_filter]
  refine Finset.sum_congr rfl fun e _ => ?_
  simp only [resultIdx?_vec_iff]

end Vec

/-! ## Scatter-add into a matrix at index pairs (a dense adjacency matrix from an edge list) -/

section Dense

/-- The dimension numbers of a scatter of updates `[E]` into an operand `[N, M]` at index pairs `[E, 2]`. -/
abbrev denseDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem dense_start0 (idx : IVec ⟨2, ![E, 2]⟩ w) (e : Fin E) :
    (denseDims N M E wf).start (ix1 e) idx 0 = (idx (ix2 e 0)).toInt := by
  unfold ScatterDims.start
  have h : (0 : Fin 2) ∈ (denseDims N M E wf).scatterDimsToOperandDims := (show (0 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_start1 (idx : IVec ⟨2, ![E, 2]⟩ w) (e : Fin E) :
    (denseDims N M E wf).start (ix1 e) idx 1 = (idx (ix2 e 1)).toInt := by
  unfold ScatterDims.start
  have h : (1 : Fin 2) ∈ (denseDims N M E wf).scatterDimsToOperandDims := (show (1 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_window (j : (⟨1, ![E]⟩ : Shape).Idx) (a : Fin 2) : (denseDims N M E wf).window j a = 0 := by
  unfold ScatterDims.window
  have h : a ∉ (denseDims N M E wf).sKept := by
    have : ∀ b : Fin 2, b ∉ ((List.finRange 2).filter (· ∉ ([0, 1] : List (Fin 2)))) := by decide
    exact this a
  rw [dif_neg h]

theorem resultIdx?_dense_iff (idx : IVec ⟨2, ![E, 2]⟩ w) (e : Fin E) (i : Fin N) (j : Fin M) :
    (denseDims N M E wf).resultIdx? (ix1 e) idx = some (ix2 i j)
      ↔ (idx (ix2 e 0)).toInt = (i.val : Int) ∧ (idx (ix2 e 1)).toInt = (j.val : Int) := by
  rw [resultIdx?_eq_some_iff]
  constructor
  · intro h
    have h0 : (denseDims N M E wf).start (ix1 e) idx 0 + (denseDims N M E wf).window (ix1 e) 0 = ((i.val : ℕ) : ℤ) := h 0
    have h1 : (denseDims N M E wf).start (ix1 e) idx 1 + (denseDims N M E wf).window (ix1 e) 1 = ((j.val : ℕ) : ℤ) := h 1
    rw [dense_start0, dense_window] at h0
    rw [dense_start1, dense_window] at h1
    exact ⟨by simpa using h0, by simpa using h1⟩
  · rintro ⟨h0, h1⟩ a
    match a with
    | ⟨0, _⟩ =>
      show (denseDims N M E wf).start (ix1 e) idx 0 + (denseDims N M E wf).window (ix1 e) 0 = _
      rw [dense_start0, dense_window, h0]; simp
    | ⟨1, _⟩ =>
      show (denseDims N M E wf).start (ix1 e) idx 1 + (denseDims N M E wf).window (ix1 e) 1 = _
      rw [dense_start1, dense_window, h1]; simp

/-- THE MATRIX SCATTER-ADD READ AT `(i, j)`: the operand there plus the updates of the entries whose two index words, read
    signed, are `i` and `j`. -/
theorem hostScatterAdd_dense_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (denseDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  unfold Ideal.hostScatterAdd
  refine congrArg (x (ix2 i j) + ·) ?_
  rw [Finset.sum_filter, sum_idx1, Finset.sum_filter]
  refine Finset.sum_congr rfl fun e _ => ?_
  simp only [resultIdx?_dense_iff]

end Dense

/-! ## Gather of rows -/

section Rows
variable {α : Type}

/-- The dimension numbers of a gather of rows of `[N, C]` at row indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `ids e` — read signed and clamped into `[0, N − 1]` — and column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  refine congrArg x ?_
  funext a
  refine Fin.ext ?_
  have hk1 : (1 : Fin 2) ∈ (rowDims N C E wf).sKept :=
    ((rowDims N C E wf).mem_sKept 1).mpr ⟨(show (1 : Fin 2) ∉ ([0] : List (Fin 2)) from by decide), List.not_mem_nil⟩
  have hk0 : (0 : Fin 2) ∉ (rowDims N C E wf).sKept := fun h =>
    (((rowDims N C E wf).mem_sKept 0).mp h).1 (List.mem_singleton.mpr rfl)
  match a with
  | ⟨0, _⟩ =>
    show (rowDims N C E wf).start (ix2 e c) idx 0 + (rowDims N C E wf).batchCoord (ix2 e c) 0 + (rowDims N C E wf).offCoord (ix2 e c) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1 + (rowDims N C E wf).offCoord (ix2 e c) 1 = _
    rw [GatherDims.batchCoord_eq_zero _ _ _ List.not_mem_nil]
    have hs : (rowDims N C E wf).start (ix2 e c) idx 1 = 0 := by
      unfold GatherDims.start
      have h : (1 : Fin 2) ∉ (rowDims N C E wf).startIndexMap := (show (1 : Fin 2) ∉ ([0] : List (Fin 2)) from by decide)
      rw [dif_neg h]
    have ho : (rowDims N C E wf).offCoord (ix2 e c) 1 = c.val := by
      unfold GatherDims.offCoord
      rw [dif_pos hk1]
      rfl
    rw [hs, ho]; simp

end Rows

/-! ## Gather from a vector -/

section VecG
variable {α : Type}

/-- The dimension numbers of a gather from a vector `[N]` at indices `[E, 1]`, result `[E]`. -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `ids e`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e) = x (ix1 ⟨min (idx (ix2 e 0)).toInt.toNat (N - 1), by omega⟩) := by
  unfold Host.gather
  refine congrArg x ?_
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecG

/-! ## An index word in range -/

/-- A 32-bit word that is nonnegative as a signed integer and below `n` reads, signed, as a natural number below `n`:
    the scatter's test `toInt = i` and the gather's clamp `min toNat (n − 1)` then name the same row. -/
theorem clamp_eq_of_inRange {n : Nat} (v : BitVec 32) (i : Fin n) (h : v.toInt = (i.val : Int)) :
    min v.toInt.toNat (n - 1) = i.val := by
  rw [h]; have := i.isLt; simp only [Int.toNat_natCast]; omega

end LibRowScatterGather
-- ==== Proof.LibScatterColumns.lean ====
/-
  Columns of a row scatter-add, on the extended reals.

  Scatter-adding rows of updates [E, C'] into an [N, C'] array by row index touches each column on its own: entry (i, k')
  of the result is the operand's entry plus the sum, over the rows e whose index is i, of the update's entry (e, k').
  So if column k' of the operand and of the updates is column k of a second operand [N, C] and second updates [E, C],
  the two scatter-adds agree there (`seg_col_eq_seg_col`); and if it is a vector operand [N] and vector updates [E],
  the matrix scatter-add's column is the vector scatter-add (`seg_col_eq_vec`).  This is what makes one segment sum of
  a payload widened by extra columns equal to separate segment sums of its parts.
-/
import proofs.«166605_j11622181503640_2_alg».proof.Proof.LibRowScatterGather

noncomputable section

namespace LibScatterColumns

open Idealize.ShloMosaic Idealize.ShloMosaic.ValueIdx LibRowScatterGather

variable {N E C C' w : Nat}
  (wfA : ScatterDims.WF ⟨2, ![N, C']⟩ ⟨2, ![E, 1]⟩ ⟨2, ![E, C']⟩ [1] [0] [0] 1)

/-- Column k' of a row scatter-add into [N, C'] is column k of a row scatter-add into [N, C] by the same row indices,
    when the operands agree at (i, k') and (i, k) and the updates agree at (e, k') and (e, k) for every row e. -/
theorem seg_col_eq_seg_col (wfB : ScatterDims.WF ⟨2, ![N, C]⟩ ⟨2, ![E, 1]⟩ ⟨2, ![E, C]⟩ [1] [0] [0] 1)
    (xA : (⟨2, ![N, C']⟩ : Shape).Idx → EReal) (xB : (⟨2, ![N, C]⟩ : Shape).Idx → EReal) (idx : IVec ⟨2, ![E, 1]⟩ w)
    (uA : (⟨2, ![E, C']⟩ : Shape).Idx → EReal) (uB : (⟨2, ![E, C]⟩ : Shape).Idx → EReal)
    (i : Fin N) (k' : Fin C') (k : Fin C)
    (hx : xA (ix2 i k') = xB (ix2 i k)) (hu : ∀ e : Fin E, uA (ix2 e k') = uB (ix2 e k)) :
    Ideal.hostScatterAdd (segDims N E C' wfA) xA idx uA (ix2 i k')
      = Ideal.hostScatterAdd (segDims N E C wfB) xB idx uB (ix2 i k) := by
  rw [hostScatterAdd_seg_apply, hostScatterAdd_seg_apply, hx]
  exact congrArg (xB (ix2 i k) + ·) (Finset.sum_congr rfl fun e _ => hu e)

/-- Column k' of a row scatter-add into [N, C'] is the scatter-add into a vector [N] by the same indices, when the
    operand's column is the vector operand and the updates' column is the vector of updates. -/
theorem seg_col_eq_vec (wfV : ScatterDims.WF ⟨1, ![N]⟩ ⟨2, ![E, 1]⟩ ⟨1, ![E]⟩ [] [0] [0] 1)
    (xA : (⟨2, ![N, C']⟩ : Shape).Idx → EReal) (xV : (⟨1, ![N]⟩ : Shape).Idx → EReal) (idx : IVec ⟨2, ![E, 1]⟩ w)
    (uA : (⟨2, ![E, C']⟩ : Shape).Idx → EReal) (uV : (⟨1, ![E]⟩ : Shape).Idx → EReal)
    (i : Fin N) (k' : Fin C')
    (hx : xA (ix2 i k') = xV (ix1 i)) (hu : ∀ e : Fin E, uA (ix2 e k') = uV (ix1 e)) :
    Ideal.hostScatterAdd (segDims N E C' wfA) xA idx uA (ix2 i k')
      = Ideal.hostScatterAdd (vecDims N E wfV) xV idx uV (ix1 i) := by
  rw [hostScatterAdd_seg_apply, hostScatterAdd_vec_apply, hx]
  exact congrArg (xV (ix1 i) + ·) (Finset.sum_congr rfl fun e _ => hu e)

end LibScatterColumns

end
-- ==== Proof.Bridge.lean ====
/-
  The kernel's inputs are the reference's own intermediate arrays, entry by entry.

  The kernel's host prefix scatter-adds ONE 65-column payload — 64 columns of gathered source features and a column of
  ones — by destination row.  Column k < 64 of that scatter-add is column k of the reference's scatter-add of the
  gathered features alone: the same zero start, the same row indices, and the payload's column k is the gathered
  features' column k.  Column 64 is the reference's scatter-add of ones into a vector: the same zero start, and the
  payload's last column is all ones.  The bf16 weights are the weights (a narrowing is the identity on the extended
  reals) and the bias recast as a row is the bias spread to a row.  Both programs gather with the same wrapped source
  indices and scatter with the same destination indices, so those arrays are one term on both sides.
-/
import proofs.«166605_j11622181503640_2_alg».proof.Proof.HostPrefix
import proofs.«166605_j11622181503640_2_alg».proof.Proof.RefValue
import proofs.«166605_j11622181503640_2_alg».proof.Proof.LibScatterColumns
import proofs.«166605_j11622181503640_2_alg».proof.Proof.LibUnitAxes
import Idealize.ShloMosaic.Lib.ValueLayout
import Idealize.ShloMosaic.Lib.Pipeline.Value

noncomputable section

namespace Cert.Bridge

open Idealize.ShloMosaic Idealize.ShloMosaic.ValueIdx
open Cert.KernelIdeal.Prefix Cert.ReferenceIdeal.Read

variable (x0 : (⟨2, ![100000, 64]⟩ : Shape).Idx → EReal) (x1 x2 : IVec (⟨1, ![1600000]⟩ : Shape) 32)
  (x3 : (⟨2, ![64, 64]⟩ : Shape).Idx → EReal) (x4 : (⟨1, ![64]⟩ : Shape).Idx → EReal)

/-- Both programs gather the same rows. -/
theorem gathered_eq : gathered (F := Ideal) x0 x1 = val_main_v6 (F := Ideal) x0 x1 := rfl

/-- Column k < 64 of the payload is column k of the gathered features. -/
theorem payload_left (e : Fin 1600000) (k' : Fin 65) (k : Fin 64) (hk : k.val = k'.val) :
    payload (F := Ideal) x0 x1 (ix2 e k') = val_main_v6 (F := Ideal) x0 x1 (ix2 e k) := by
  unfold payload
  rw [gathered_eq]
  exact concatenate_pair_apply_left (t := Cert.KernelIdeal.S1600000x65) (s₁ := Cert.KernelIdeal.S1600000x64)
    (s₂ := Cert.KernelIdeal.S1600000x1) 1 (val_main_v6 (F := Ideal) x0 x1)
    (broadcastInDim Cert.KernelIdeal.S1600000x1 ![] Cert.KernelIdeal.Gen.bcast_S_S1600000x1 (constant (F := Ideal) Cert.KernelIdeal.S_ .f32 0x3F800000#32))
    Cert.KernelIdeal.Gen.concatenates_S1600000x64_S1600000x1_S1600000x65_d1 (ix2 e k') rfl (ix2 e k) (fun b => by
    match b with
    | ⟨0, _⟩ => rfl
    | ⟨1, _⟩ => exact hk)

/-- The payload's last column is the one word. -/
theorem payload_last (e : Fin 1600000) (k' : Fin 65) (hk : k'.val = 64) :
    payload (F := Ideal) x0 x1 (ix2 e k') = Ideal.ofBits .f32 0x3F800000#32 := by
  unfold payload
  refine (concatenate_pair_apply_right (t := Cert.KernelIdeal.S1600000x65) (s₁ := Cert.KernelIdeal.S1600000x64)
    (s₂ := Cert.KernelIdeal.S1600000x1) 1 (gathered (F := Ideal) x0 x1)
    (broadcastInDim Cert.KernelIdeal.S1600000x1 ![] Cert.KernelIdeal.Gen.bcast_S_S1600000x1 (constant (F := Ideal) Cert.KernelIdeal.S_ .f32 0x3F800000#32))
    Cert.KernelIdeal.Gen.concatenates_S1600000x64_S1600000x1_S1600000x65_d1 (ix2 e k') rfl rfl (ix2 e (0 : Fin 1)) (fun b hb => by
    match b with
    | ⟨0, _⟩ => rfl
    | ⟨1, _⟩ => exact absurd rfl hb) (by show (0 : Nat) + 64 = k'.val; omega)).trans ?_
  exact Cert.LibUnitAxes.broadcastInDim_scalar_apply _ _ _

/-! ### The three scatter-adds, named -/

/-- The zero start of a scatter-add, at any index: the zero word. -/
theorem zeros_apply {t : Shape} (h : (⟨0, ![]⟩ : Shape).BroadcastsInDim t ![]) (j : t.Idx) :
    broadcastInDim t ![] h (constant (F := Ideal) (⟨0, ![]⟩ : Shape) .f32 0x00000000#32) j = Ideal.ofBits .f32 0x00000000#32 :=
  Cert.LibUnitAxes.broadcastInDim_scalar_apply _ _ _

/-- The kernel side's one scatter-add of the 65-column payload. -/
theorem msgdeg_eq : msgdeg (F := Ideal) x0 x1 x2
    = Ideal.hostScatterAdd (LibRowScatterGather.segDims 100000 1600000 65
        Cert.KernelIdeal.Gen.scatter_S100000x65_S1600000x1_S1600000x65_1_0_0_1_wf)
        (broadcastInDim Cert.KernelIdeal.S100000x65 ![] Cert.KernelIdeal.Gen.bcast_S_S100000x65
          (constant (F := Ideal) Cert.KernelIdeal.S_ .f32 0x00000000#32))
        (dstRows (F := Ideal) x2) (payload (F := Ideal) x0 x1) := rfl

/-- The reference's scatter-add of the gathered features. -/
theorem v9_eq : val_main_v9 (F := Ideal) x0 x1 x2
    = Ideal.hostScatterAdd (LibRowScatterGather.segDims 100000 1600000 64
        Cert.ReferenceIdeal.Gen.scatter_S100000x64_S1600000x1_S1600000x64_1_0_0_1_wf)
        (val_main_v7 (F := Ideal)) (dstRows (F := Ideal) x2) (val_main_v6 (F := Ideal) x0 x1) := rfl

/-- The reference's scatter-add of ones into a vector. -/
theorem v13_eq : val_main_v13 (F := Ideal) x2
    = Ideal.hostScatterAdd (LibRowScatterGather.vecDims 100000 1600000
        Cert.ReferenceIdeal.Gen.scatter_S100000_S1600000x1_S1600000_n_0_0_1_wf)
        (val_main_v11 (F := Ideal)) (dstRows (F := Ideal) x2) (val_main_v10 (F := Ideal)) := rfl

/-- MESSAGE SUMS: the first 64 columns of the fused scatter-add are the reference's scatter-add of the gathered rows. -/
theorem msg_eq (r : Fin 100000) (k : Fin 64) :
    extractStridedSlice Cert.KernelIdeal.S100000x64 ![0, 0] (msgdeg (F := Ideal) x0 x1 x2)
        Cert.KernelIdeal.Gen.slices_S100000x65_S100000x64_0_0 (ix2 r k)
      = val_main_v9 (F := Ideal) x0 x1 x2 (ix2 r k) := by
  rw [slice2_axis1_apply 0 (msgdeg (F := Ideal) x0 x1 x2) _ r k ⟨k.val, by have := k.isLt; omega⟩ (by simp),
    msgdeg_eq, v9_eq]
  refine LibScatterColumns.seg_col_eq_seg_col _ _ _ _ _ _ _ r _ k ?_ ?_
  · exact (zeros_apply _ _).trans ((val_main_v7_apply (F := Ideal) (ix2 r k)).trans rfl).symm
  · intro e
    exact payload_left x0 x1 e _ k rfl

/-- IN-DEGREES: the last column of the fused scatter-add is the reference's scatter-add of ones, as a column. -/
theorem deg_eq (r : Fin 100000) :
    extractStridedSlice Cert.KernelIdeal.S100000x1 ![0, 64] (msgdeg (F := Ideal) x0 x1 x2)
        Cert.KernelIdeal.Gen.slices_S100000x65_S100000x1_0_64 (ix2 r (0 : Fin 1))
      = val_main_v15 (F := Ideal) x2 (ix2 r (0 : Fin 1)) := by
  have e15 : idx_main_v15 (ix2 r (0 : Fin 1)) = ix1 r := funext fun a => Fin.ext (by
    match a with
    | ⟨0, _⟩ => rfl)
  rw [slice2_axis1_apply 64 (msgdeg (F := Ideal) x0 x1 x2) _ r (0 : Fin 1) ⟨64, by omega⟩ (by simp), val_main_v15_apply,
    e15, msgdeg_eq, v13_eq]
  refine LibScatterColumns.seg_col_eq_vec _ _ _ _ _ _ _ r _ ?_ ?_
  · exact (zeros_apply _ _).trans ((val_main_v11_apply (F := Ideal) (ix1 r)).trans rfl).symm
  · intro e
    exact (payload_last x0 x1 e _ rfl).trans ((val_main_v10_apply (F := Ideal) (ix1 e)).trans rfl).symm

/-- WEIGHTS: narrowing to bf16 changes nothing on the extended reals. -/
theorem w_eq (W : FVec Ideal Cert.KernelIdeal.S64x64 .f32) (k c : Fin 64) :
    (truncf .bf16 W Cert.KernelIdeal.Gen.bitsLt_bf16_f32 : FVec Ideal Cert.KernelIdeal.S64x64 .bf16) (ix2 k c) = W (ix2 k c) := rfl

/-- BIAS: the bias recast as a one-row matrix is the bias spread along a row. -/
theorem b_eq (c : Fin 64) :
    shapeCast Cert.KernelIdeal.S1x64 x4 Cert.KernelIdeal.Gen.shapeCasts_S64_S1x64 (ix2 (0 : Fin 1) c)
      = val_main_v21 (F := Ideal) x4 (ix2 (0 : Fin 1) c) := by
  rw [shapeCast_a_1a_apply, val_main_v21_apply]
  exact congrArg x4 (funext fun a => Fin.ext (by
    match a with
    | ⟨0, _⟩ => rfl))

end Cert.Bridge

end
-- ==== Proof.Join.lean ====
/-
  The two results are one array.

  The kernel's result array is the layer of the five arrays its region finds; those are, entry by entry, the reference's
  message sums, the features, the reference's degree column, the weights and the reference's bias row (Bridge); and the
  reference's result is the layer of exactly these (RefValue).  The layer reads its arrays entry by entry, so the two
  results agree.
-/
import proofs.«166605_j11622181503640_2_alg».proof.Proof.KernelValue
import proofs.«166605_j11622181503640_2_alg».proof.Proof.Bridge

noncomputable section

namespace Cert.Join

open Cert.KernelIdeal Cert.KernelIdeal.Gen Idealize.ShloMosaic Idealize.ShloMosaic.TcCoe Idealize.SL.Sem
open Idealize.ShloMosaic.ValueIdx Cert.Sage

variable (m : (ℓ : Loc nD τ sig) → Buf (Elt Ideal) ℓ)

/-- The kernel's result array is the reference's last stage at the kernel's own argument arrays. -/
theorem result_eq (c : Dev nD) :
    Cert.KernelIdeal.Whole.G m c
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.ReferenceIdeal.RefValue.result_eq_layer]
  show layer (V m c main_v12) (V m c main_arg0) (V m c main_v13) (V m c main_v15) (V m c main_v14) = _
  rw [Cert.KernelIdeal.Prefix.V_main_v12, Cert.KernelIdeal.Prefix.V_main_v13, Cert.KernelIdeal.Prefix.V_main_v14,
    Cert.KernelIdeal.Prefix.V_main_v15, V_main_arg0]
  exact layer_congr (fun r k => Cert.Bridge.msg_eq _ _ _ r k) (fun _ _ => rfl) (fun r => Cert.Bridge.deg_eq _ _ _ r)
    (fun k cc => Cert.Bridge.w_eq _ k cc) (fun cc => Cert.Bridge.b_eq _ cc)

end Cert.Join

end
-- ==== Proof.lean ====
/-
  A graph layer: the mean of a node's feature and its in-neighbours' features, a 64 × 64 linear map with bias, and a
  leaky rectifier — computed by a kernel over blocks of 5000 nodes after ONE fused segment sum on the host, against a
  reference that takes the message sums and the in-degrees by two separate segment sums.

  On the extended reals the two agree entry by entry.  The kernel's host prefix scatter-adds a payload of 65 columns
  (the gathered source features and a column of ones) by destination node; its first 64 columns are the reference's
  message sums and its last column the reference's in-degrees, because a row scatter-add acts on each column by itself.
  From there both programs apply the same operations to the same numbers: the quotient by (degree + 1), the product
  with the weights — the kernel's per-block product into a zero accumulator and the host's product are the same sum
  over the 64 input channels, and narrowing to bf16 is the identity —, the bias, and the rectifier with the same slope
  word.  No law used needs finiteness: the precondition is not opened.

  The frames of the two kernel programs are the generated ones; the reference's frame is its generated run with the
  result forgotten; the idealization rewrote nothing, so there is nothing to preserve.
-/
import proofs.«166605_j11622181503640_2_alg».proof.Defs
import proofs.«166605_j11622181503640_2_alg».proof.Proof.Gen.Kernel
import proofs.«166605_j11622181503640_2_alg».proof.Proof.Gen.Kernel.Skeleton
import proofs.«166605_j11622181503640_2_alg».proof.Proof.Gen.Kernel.Launch
import proofs.«166605_j11622181503640_2_alg».proof.Proof.Gen.Kernel.Points
import proofs.«166605_j11622181503640_2_alg».proof.Proof.Gen.Kernel.Frame
import proofs.«166605_j11622181503640_2_alg».proof.Proof.Gen.KernelIdeal
import proofs.«166605_j11622181503640_2_alg».proof.Proof.Gen.KernelIdeal.Skeleton
import proofs.«166605_j11622181503640_2_alg».proof.Proof.Gen.KernelIdeal.Launch
import proofs.«166605_j11622181503640_2_alg».proof.Proof.Gen.KernelIdeal.Points
import proofs.«166605_j11622181503640_2_alg».proof.Proof.Gen.KernelIdeal.Frame
import proofs.«166605_j11622181503640_2_alg».proof.Proof.Gen.ReferenceIdeal
import proofs.«166605_j11622181503640_2_alg».proof.Proof.Gen.KernelIdeal.Value
import proofs.«166605_j11622181503640_2_alg».proof.Proof.Gen.ReferenceIdeal.Run
import proofs.«166605_j11622181503640_2_alg».proof.Proof.Gen.ReferenceIdeal.Read
import proofs.«166605_j11622181503640_2_alg».proof.Proof.Gen.Pre_finite_inputs
import proofs.«166605_j11622181503640_2_alg».proof.Proof.Join
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's result array ends at the layer of the arrays its region finds,
    the reference's at its last stage; at equal arguments these are one array. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2]
  exact (Cert.Join.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
